-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x32 : Shape := ⟨2, ![1600000, 32]⟩
abbrev S1x32 : Shape := ⟨2, ![1, 32]⟩
abbrev S96x32 : Shape := ⟨2, ![96, 32]⟩
abbrev S32 : Shape := ⟨1, ![32]⟩
abbrev S32x32 : Shape := ⟨2, ![32, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S1x32 : S_.BroadcastsInDim S1x32 (![] : Fin 0 → Fin S1x32.rank)
  reducesTo_S1x32_S_d0_1 : S1x32.ReducesTo [0, 1] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32 .f32) (main_arg6 : FVec F S32x32 .f32) (main_arg7 : FVec F S32 .f32) (main_v13 : IVec S_ 1) (main_v16 : IVec S96x32 1) : IVec S_ 1 :=
  let main_c_5 : IVec S_ 1 := constantI S_ 1 1#1
  let main_v17 : IVec S_ 1 := (fun x v => Host.reduce IntOp.andi x v reducesTo_S96x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S1600000x32 .f32) (main_arg3 : FVec F S1x32 .f32) (main_arg4 : FVec F S96x32 .f32) (main_arg5 : FVec F S32 .f32) (main_arg6 : FVec F S32x32 .f32) (main_arg7 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S1x32 .f32 := Host.absf main_arg3
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S96x32 .f32 := Host.absf main_arg4
  let main_cst_4 : FVec F S_ .f32 := constant S_ .f32 0x7F800000#32
  let main_v15 : FVec F S96x32 .f32 := broadcastInDim S96x32 ![] bcast_S_S96x32 main_cst_4
  let main_v16 : IVec S96x32 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S1600000x32 : Shape := ⟨2, ![1600000, 32]⟩
abbrev S1x32 : Shape := ⟨2, ![1, 32]⟩
abbrev S96x32 : Shape := ⟨2, ![96, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S10000x32 : Shape := ⟨2, ![10000, 32]⟩

abbrev nBuf : Space → Nat
  | .hbm => 20
  | .vmem => 13
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x32, .f32⟩
  | .hbm, ⟨3, _⟩ => ⟨S1x32, .f32⟩
  | .hbm, ⟨4, _⟩ => ⟨S96x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000x32, .f32⟩
  | .hbm, ⟨12, _⟩ => ⟨S1600000x1, .i32⟩
  | .hbm, ⟨13, _⟩ => ⟨S100000x32, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S1x32, .f32⟩
  | .hbm, ⟨18, _⟩ => ⟨S1x32, .f32⟩
  | .hbm, ⟨19, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S1x32, .f32⟩
  | .local _ .vmem, ⟨5, _⟩ => ⟨S32x32, .f32⟩
  | .local _ .vmem, ⟨6, _⟩ => ⟨S32x32, .f32⟩
  | .local _ .vmem, ⟨7, _⟩ => ⟨S32x32, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S10000x32, .f32⟩
  | .local _ .vmem, ⟨12, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  slices_S96x32_S32x32_0_0 : S96x32.Slices ![0, 0] S32x32
  slices_S96x32_S32x32_32_0 : S96x32.Slices ![32, 0] S32x32
  slices_S96x32_S32x32_64_0 : S96x32.Slices ![64, 0] S32x32
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x32.size a ≤ S100000x32.size a
  hwx0_9 : ∀ i : grid0.Coords, EltTy.bits .f32 = 32 ∨ (Rect.block (s := S100000x32) S10000x32.size (cc0_transform_9 i) (hinb0_9 i)).WholeWords (EltTy.packing .f32)

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S10000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x32 : Shape := ⟨2, ![1600000, 32]⟩
abbrev S1x32 : Shape := ⟨2, ![1, 32]⟩
abbrev S96x32 : Shape := ⟨2, ![96, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x96 : Shape := ⟨2, ![100000, 96]⟩

abbrev nBuf : Space → Nat
  | .hbm => 27
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x32, .f32⟩
  | .hbm, ⟨3, _⟩ => ⟨S1x32, .f32⟩
  | .hbm, ⟨4, _⟩ => ⟨S96x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000x32, .f32⟩
  | .hbm, ⟨12, _⟩ => ⟨S1600000x1, .i32⟩
  | .hbm, ⟨13, _⟩ => ⟨S100000x32, .f32⟩
  | .hbm, ⟨14, _⟩ => ⟨S100000x32, .f32⟩
  | .hbm, ⟨15, _⟩ => ⟨S100000x96, .f32⟩
  | .hbm, ⟨16, _⟩ => ⟨S100000x32, .f32⟩
  | .hbm, ⟨17, _⟩ => ⟨S1x32, .f32⟩
  | .hbm, ⟨18, _⟩ => ⟨S100000x32, .f32⟩
  | .hbm, ⟨19, _⟩ => ⟨S100000x32, .f32⟩
  | .hbm, ⟨20, _⟩ => ⟨S_, .f32⟩
  | .hbm, ⟨21, _⟩ => ⟨S100000x32, .f32⟩
  | .hbm, ⟨22, _⟩ => ⟨S100000x32, .f32⟩
  | .hbm, ⟨23, _⟩ => ⟨S100000x32, .f32⟩
  | .hbm, ⟨24, _⟩ => ⟨S1x32, .f32⟩
  | .hbm, ⟨25, _⟩ => ⟨S100000x32, .f32⟩
  | .hbm, ⟨26, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  bcast_S1x32_S100000x32_0_1 : S1x32.BroadcastsInDim S100000x32 (![0, 1] : Fin 2 → Fin S100000x32.rank)
  concatenates_S100000x32_S100000x32_S100000x32_S100000x96_d1 : Shape.Concatenates [S100000x32, S100000x32, S100000x32] S100000x96 1
  bcast_S32_S1x32_1 : S32.BroadcastsInDim S1x32 (![1] : Fin 1 → Fin S1x32.rank)
  scatter_S100000x32_S1600000x1_S1600000x32_1_0_0_1_wf : ScatterDims.WF S100000x32 S1600000x1 S1600000x32 [1] [0] [0] 1
  dot_S100000x96_S96x32_S100000x32_1_0_0_1_n_n_wf : DotDims.WF S100000x96 S96x32 S100000x32 [1] [0] [0] [1] [] []
  dot_S100000x32_S32x32_S100000x32_1_0_0_1_n_n_wf : DotDims.WF S100000x32 S32x32 S100000x32 [1] [0] [0] [1] [] []

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x96_S96x32_S100000x32_1_0_0_1_n_n : DotDims S100000x96 S96x32 S100000x32 where
  lhsContracting := [1]
  rhsContracting := [0]
  lhsNonContracting := [0]
  rhsNonContracting := [1]
  lhsBatch := []
  rhsBatch := []
  wf := dot_S100000x96_S96x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.Spec.lean ====
/-
  The function both programs compute, row by row, on the extended reals.

  A node's output row is a two-layer perceptron of three 32-vectors: the node's own features `x`, the sum `a` of the
  features of the edges it receives, and the global features `g`. The first layer's 96 × 32 weight matrix acts on the
  concatenation `[x, a, g]`; equivalently its three bands of 32 rows act on `x`, `a` and `g` separately and the three
  products are added. That equivalence is `sum_bands`: a sum over 96 indices is the sum of the sums over the three bands.
  It only regroups a finite sum, so it holds in every commutative additive monoid, the extended reals included, with no
  finiteness assumption.
-/
import Idealize.ShloMosaic.PureOps.Ideal
import Idealize.ShloMosaic.Lib.ValueIdx
import Mathlib.Algebra.BigOperators.Fin

noncomputable section

namespace Cert.NodeMlp

open Idealize.ShloMosaic Idealize.ShloMosaic.ValueIdx

/-- Row `l` of the first band (rows 0–31) of the 96-row weight matrix. -/
abbrev band0 (l : Fin 32) : Fin 96 := ⟨l.val, by have := l.isLt; omega⟩
/-- Row `l` of the second band (rows 32–63). -/
abbrev band1 (l : Fin 32) : Fin 96 := ⟨32 + l.val, by have := l.isLt; omega⟩
/-- Row `l` of the third band (rows 64–95). -/
abbrev band2 (l : Fin 32) : Fin 96 := ⟨64 + l.val, by have := l.isLt; omega⟩

/-- A sum over the 96 rows is the sum over the first band, plus the sum over the second, plus the sum over the third. -/
theorem sum_bands {M : Type} [AddCommMonoid M] (f : Fin 96 → M) :
    ∑ k : Fin 96, f k = (∑ l : Fin 32, f (band0 l) + ∑ l : Fin 32, f (band1 l)) + ∑ l : Fin 32, f (band2 l) := by
  have h : ∑ k : Fin (32 + 32 + 32), f k
      = (∑ l : Fin 32, f (Fin.castAdd 32 (Fin.castAdd 32 l)) + ∑ l : Fin 32, f (Fin.castAdd 32 (Fin.natAdd 32 l)))
        + ∑ l : Fin 32, f (Fin.natAdd (32 + 32) l) := by
    rw [Fin.sum_univ_add, Fin.sum_univ_add]
  exact h

/-- One output entry: column `q` of the second layer applied to the rectified first layer of `[x, a, g]`.
    `z` is the value the rectifier compares with (zero), kept as a parameter so that neither side evaluates it. -/
def mlp (z : EReal) (x a g : Fin 32 → EReal) (Wx Wa Wg : Fin 32 → Fin 32 → EReal) (b1 : Fin 32 → EReal)
    (W2 : Fin 32 → Fin 32 → EReal) (b2 : Fin 32 → EReal) (q : Fin 32) : EReal :=
  (∑ k : Fin 32, max (((∑ l : Fin 32, x l * Wx l k + ∑ l : Fin 32, a l * Wa l k) + ∑ l : Fin 32, g l * Wg l k) + b1 k) z * W2 k q) + b2 q

/-- The whole result array as one function of the argument arrays: entry `(r, q)` is `mlp` of row `r` of the node
    features and of the aggregated edge features, the one row of global features, the three bands of the first weight
    matrix, and the second layer. -/
def result (z : EReal) (node agg : (⟨2, ![100000, 32]⟩ : Shape).Idx → EReal) (g : (⟨2, ![1, 32]⟩ : Shape).Idx → EReal)
    (W1 : (⟨2, ![96, 32]⟩ : Shape).Idx → EReal) (b1 : (⟨1, ![32]⟩ : Shape).Idx → EReal)
    (W2 : (⟨2, ![32, 32]⟩ : Shape).Idx → EReal) (b2 : (⟨1, ![32]⟩ : Shape).Idx → EReal) :
    (⟨2, ![100000, 32]⟩ : Shape).Idx → EReal := fun i =>
  mlp z (fun l => node (ix2 (i 0) l)) (fun l => agg (ix2 (i 0) l)) (fun l => g (ix2 (0 : Fin 1) l))
    (fun l k => W1 (ix2 (band0 l) k)) (fun l k => W1 (ix2 (band1 l) k)) (fun l k => W1 (ix2 (band2 l) k))
    (fun k => b1 (ix1 k)) (fun k q => W2 (ix2 k q)) (fun q => b2 (ix1 q)) (i 1)

end Cert.NodeMlp

end
-- ==== Proof.KernelBlock.lean ====
/-
  What one grid point's body leaves in its output block, entry by entry.

  The body multiplies the point's 10000 × 32 block of node features, its block of aggregated edge features and the
  global row (repeated on every row) by the three 32 × 32 bands of the first weight matrix, adds the three products and
  the first bias, rectifies, multiplies by the second weight matrix and adds the second bias. On the extended reals the
  roundings to the narrower float format are the identity and a matrix product into a zero accumulator is the plain sum
  over the contracted index, so entry `(p, q)` of the block is `mlp` of row `p` of the two feature blocks, the global
  row, and the weights as loaded.
-/
import proofs.«172784_j21852793602131_2_alg».proof.Proof.Gen.KernelIdeal.Value
import proofs.«172784_j21852793602131_2_alg».proof.Proof.Spec
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Cert.KernelIdeal.Value Idealize.ShloMosaic Idealize.ShloMosaic.ValueIdx
open Cert.NodeMlp

/-! ## A 10000 × 32 by 32 × 32 product into a zero accumulator is the sum over the contracted index -/

theorem lhs0 (i : S10000x32.Idx) (c : dot_S10000x32_S32x32_S10000x32_1_0_0_1_n_n.contr.Idx) : (dot_S10000x32_S32x32_S10000x32_1_0_0_1_n_n.lhsIdx i c 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhs1 (i : S10000x32.Idx) (c : dot_S10000x32_S32x32_S10000x32_1_0_0_1_n_n.contr.Idx) : (dot_S10000x32_S32x32_S10000x32_1_0_0_1_n_n.lhsIdx i c 1).val = (c ⟨0, by decide⟩).val :=
  dot_S10000x32_S32x32_S10000x32_1_0_0_1_n_n.lhsIdx_val_of_single rfl i c
theorem rhs0 (i : S10000x32.Idx) (c : dot_S10000x32_S32x32_S10000x32_1_0_0_1_n_n.contr.Idx) : (dot_S10000x32_S32x32_S10000x32_1_0_0_1_n_n.rhsIdx i c 0).val = (c ⟨0, by decide⟩).val :=
  dot_S10000x32_S32x32_S10000x32_1_0_0_1_n_n.rhsIdx_val_of_single rfl i c
theorem rhs1 (i : S10000x32.Idx) (c : dot_S10000x32_S32x32_S10000x32_1_0_0_1_n_n.contr.Idx) : (dot_S10000x32_S32x32_S10000x32_1_0_0_1_n_n.rhsIdx i c 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- Entry `(p, q)` of the product is the sum over `k` of the left operand's `(p, k)` times the right operand's `(k, q)`. -/
theorem mm {φ₁ φ₂ : FTy} (lhs : FVec Ideal S10000x32 φ₁) (rhs : FVec Ideal S32x32 φ₂) (p : Fin 10000) (q : Fin 32) :
    matmul dot_S10000x32_S32x32_S10000x32_1_0_0_1_n_n none lhs rhs (constant (F := Ideal) S10000x32 .f32 0x00000000#32) (ix2 p q)
      = ∑ k : Fin 32, lhs (ix2 p k) * rhs (ix2 k q) := by
  refine (Ideal.matmul_constant_zero_apply dot_S10000x32_S32x32_S10000x32_1_0_0_1_n_n none lhs rhs (ix2 p q)).trans ?_
  rw [← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p q) ((contrEquiv1 dot_S10000x32_S32x32_S10000x32_1_0_0_1_n_n 32 rfl rfl).symm k) = ix2 p k := funext fun a => Fin.ext (by
    match a with
    | ⟨0, _⟩ => exact lhs0 _ _
    | ⟨1, _⟩ => exact (lhs1 _ _).trans hk)
  have er : dot_S10000x32_S32x32_S10000x32_1_0_0_1_n_n.rhsIdx (ix2 p q) ((contrEquiv1 dot_S10000x32_S32x32_S10000x32_1_0_0_1_n_n 32 rfl rfl).symm k) = ix2 k q := funext fun a => Fin.ext (by
    match a with
    | ⟨0, _⟩ => exact (rhs0 _ _).trans hk
    | ⟨1, _⟩ => exact rhs1 _ _)
  rw [el, er]

/-- A 1 × 32 row repeated on 10000 rows, read at `(p, k)`, is the row's entry `k`. -/
theorem row_bcast (v : Vec Ideal S1x32 .f32) (h : S1x32.Broadcasts S10000x32) (p : Fin 10000) (k : Fin 32) :
    broadcastTo S10000x32 v h (ix2 p k) = v (ix2 (0 : Fin 1) k) :=
  broadcastTo_apply v h (ix2 p k) (ix2 (0 : Fin 1) k) (fun a => match a with
    | ⟨0, _⟩ => by show 0 = (if (1 : Nat) = 1 then 0 else p.val); rw [if_pos rfl]
    | ⟨1, _⟩ => by show k.val = (if (32 : Nat) = 1 then 0 else k.val); rw [if_neg (by decide)])

/-! ## The payload at an entry -/

variable (P0 P1 : Vec Ideal S10000x32 .f32) (P2 : Vec Ideal S1x32 .f32) (P3 P4 P5 : Vec Ideal S32x32 .f32)
  (P6 : Vec Ideal S1x32 .f32) (P7 : Vec Ideal S32x32 .f32) (P8 : Vec Ideal S1x32 .f32)

/-- The second product's entry `(p, q)`: the sum over the hidden units of the rectified first layer times the second
    weight matrix. -/
theorem pay2_apply (p : Fin 10000) (q : Fin 32) :
    k0_pay2 (F := Ideal) P0 P1 P2 P3 P4 P5 P6 P7 (ix2 p q)
      = ∑ k : Fin 32, max (((∑ l : Fin 32, P0 (ix2 p l) * P3 (ix2 l k) + ∑ l : Fin 32, P1 (ix2 p l) * P4 (ix2 l k))
              + ∑ l : Fin 32, P2 (ix2 (0 : Fin 1) l) * P5 (ix2 l k)) + P6 (ix2 (0 : Fin 1) k))
            (Ideal.ofBits .f32 0x00000000#32) * P7 (ix2 k q) := by
  unfold k0_pay2
  simp only [shapeCast_self]
  refine (mm _ _ p q).trans ?_
  refine Finset.sum_congr rfl fun k _ => ?_
  show max (((matmul dot_S10000x32_S32x32_S10000x32_1_0_0_1_n_n none _ _ (constant (F := Ideal) S10000x32 .f32 0x00000000#32) (ix2 p k)
        + matmul dot_S10000x32_S32x32_S10000x32_1_0_0_1_n_n none _ _ (constant (F := Ideal) S10000x32 .f32 0x00000000#32) (ix2 p k))
        + matmul dot_S10000x32_S32x32_S10000x32_1_0_0_1_n_n none _ _ (constant (F := Ideal) S10000x32 .f32 0x00000000#32) (ix2 p k))
        + broadcastTo S10000x32 P6 broadcasts_S1x32_S10000x32 (ix2 p k)) (Ideal.ofBits .f32 0x00000000#32) * P7 (ix2 k q) = _
  rw [mm, mm, mm, row_bcast]
  have e3 : ∀ l : Fin 32, truncf (F := Ideal) .bf16 (broadcastTo S10000x32 P2 broadcasts_S1x32_S10000x32) bitsLt_bf16_f32 (ix2 p l) = P2 (ix2 (0 : Fin 1) l) :=
    fun l => row_bcast P2 broadcasts_S1x32_S10000x32 p l
  simp only [e3]
  rfl

/-- Entry `(p, q)` of the block the body stores is `mlp` of row `p` of the two feature blocks, the global row and the
    weights as loaded. -/
theorem block_apply (p : Fin 10000) (q : Fin 32) :
    E9 (F := Ideal) P0 P1 P2 P3 P4 P5 P6 P7 P8 (ix2 p q)
      = mlp (Ideal.ofBits .f32 0x00000000#32) (fun l => P0 (ix2 p l)) (fun l => P1 (ix2 p l)) (fun l => P2 (ix2 (0 : Fin 1) l))
          (fun l k => P3 (ix2 l k)) (fun l k => P4 (ix2 l k)) (fun l k => P5 (ix2 l k)) (fun k => P6 (ix2 (0 : Fin 1) k))
          (fun k q => P7 (ix2 k q)) (fun q => P8 (ix2 (0 : Fin 1) q)) q := by
  have i0 : ix9_0 (ix2 p q) = ix2 p q := funext fun a => Fin.ext (by match a with | ⟨0, _⟩ => rfl | ⟨1, _⟩ => rfl)
  have i1 : ix9_1 (ix2 p q) = ix2 (0 : Fin 1) q := funext fun a => Fin.ext (by match a with | ⟨0, _⟩ => rfl | ⟨1, _⟩ => rfl)
  show k0_pay2 (F := Ideal) P0 P1 P2 P3 P4 P5 P6 P7 (ix9_0 (ix2 p q)) + P8 (ix9_1 (ix2 p q)) = _
  rw [i0, i1, pay2_apply]
  rfl

end Cert.KernelIdeal.BlockValue

end
-- ==== Proof.Arrays.lean ====
/-
  What the region finds in each array it stages, and what each input block reads.

  Before the region the host sums the edge features into their receiving nodes, cuts the 96 × 32 first weight matrix
  into its three bands of 32 rows, and views each bias vector as a 1 × 32 row. Read at an entry: band `b` of the
  weight matrix at `(l, k)` is the matrix at `(32 b + l, k)`, and a bias row at `(0, k)` is the vector at `k`. The
  aggregated edge features are the same host scatter-add of the same operands as in the reference, taken as one array.
  At grid point `t` the node-feature and aggregated-feature blocks are rows `10000 t … 10000 t + 9999` of their
  arrays; the global row, the weight bands and the biases are staged whole at every point.
-/
import proofs.«172784_j21852793602131_2_alg».proof.Proof.Gen.KernelIdeal.Frame
import proofs.«172784_j21852793602131_2_alg».proof.Proof.Gen.ReferenceIdeal.Read
import proofs.«172784_j21852793602131_2_alg».proof.Proof.Spec
import Idealize.ShloMosaic.Lib.ValueIdx
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo
open Cert.NodeMlp

variable (m : (ℓ : Loc nD τ sig) → Buf (Elt Ideal) ℓ)

/-! ## The index maps over the grid -/

/-- The two streamed inputs move with the output, one block of rows per grid point; every other input stays at block
    `(0, 0)`; the output's row-block index is at most 9 and its column-block index is 0. Decided over the ten points. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 9 ∧ win0_9.index t (1 : Fin 2) = 0 :=
  (by decide +kernel : ∀ t : Fin grid0.N, _)

/-- Every block of rows of the output is some point's. -/
theorem idx_onto : ∀ q0 : Fin 10, ∃ t : Fin cfg0.N, win0_9.index t (0 : Fin 2) = q0.val :=
  (by decide +kernel : ∀ q0 : Fin 10, ∃ t : Fin grid0.N, win0_9.index t (0 : Fin 2) = q0.val)

/-! ## The arrays the host writes before the region -/

/-- The aggregated edge features: the scatter-add of the edge features by receiver, as the reference's own stage. -/
theorem V_agg (c : Dev nD) : (V m c main_v4 : S100000x32.Idx → EReal)
    = Cert.ReferenceIdeal.Read.val_main_v4 (F := Ideal) (m ((c : Thread nD τ).loc main_arg1)) (m ((c : Thread nD τ).loc main_arg2)) := by
  dsimp only [V, hostOps0]; after_results <;> rfl

theorem V_band0 (c : Dev nD) : (V m c main_v5 : S32x32.Idx → EReal)
    = extractStridedSlice S32x32 ![0, 0] (m ((c : Thread nD τ).loc main_arg4)) slices_S96x32_S32x32_0_0 := by
  dsimp only [V, hostOps0]; after_results <;> rfl
theorem V_band1 (c : Dev nD) : (V m c main_v6 : S32x32.Idx → EReal)
    = extractStridedSlice S32x32 ![32, 0] (m ((c : Thread nD τ).loc main_arg4)) slices_S96x32_S32x32_32_0 := by
  dsimp only [V, hostOps0]; after_results <;> rfl
theorem V_band2 (c : Dev nD) : (V m c main_v7 : S32x32.Idx → EReal)
    = extractStridedSlice S32x32 ![64, 0] (m ((c : Thread nD τ).loc main_arg4)) slices_S96x32_S32x32_64_0 := by
  dsimp only [V, hostOps0]; after_results <;> rfl
theorem V_bias1 (c : Dev nD) : (V m c main_v8 : S1x32.Idx → EReal)
    = shapeCast S1x32 (m ((c : Thread nD τ).loc main_arg5)) shapeCasts_S32_S1x32 := by
  dsimp only [V, hostOps0]; after_results <;> rfl
theorem V_bias2 (c : Dev nD) : (V m c main_v9 : S1x32.Idx → EReal)
    = shapeCast S1x32 (m ((c : Thread nD τ).loc main_arg7)) shapeCasts_S32_S1x32 := by
  dsimp only [V, hostOps0]; after_results <;> rfl

/-- Band 0 of the first weight matrix at `(l, k)` is the matrix at `(l, k)`. -/
theorem band0_apply (c : Dev nD) (l k : Fin 32) :
    (V m c main_v5 : S32x32.Idx → EReal) (ix2 l k) = ((m ((c : Thread nD τ).loc main_arg4)) : S96x32.Idx → EReal) (ix2 (band0 l) k) :=
  (congrFun (V_band0 m c) (ix2 l k)).trans (extractStridedSlice_apply ![0, 0] _ slices_S96x32_S32x32_0_0 (ix2 l k) (ix2 (band0 l) k)
    (fun a => match a with
      | ⟨0, _⟩ => by show l.val = 0 + l.val; omega
      | ⟨1, _⟩ => by show k.val = 0 + k.val; omega))
/-- Band 1 at `(l, k)` is the matrix at `(32 + l, k)`. -/
theorem band1_apply (c : Dev nD) (l k : Fin 32) :
    (V m c main_v6 : S32x32.Idx → EReal) (ix2 l k) = ((m ((c : Thread nD τ).loc main_arg4)) : S96x32.Idx → EReal) (ix2 (band1 l) k) :=
  (congrFun (V_band1 m c) (ix2 l k)).trans (extractStridedSlice_apply ![32, 0] _ slices_S96x32_S32x32_32_0 (ix2 l k) (ix2 (band1 l) k)
    (fun a => match a with
      | ⟨0, _⟩ => by show 32 + l.val = 32 + l.val; rfl
      | ⟨1, _⟩ => by show k.val = 0 + k.val; omega))
/-- Band 2 at `(l, k)` is the matrix at `(64 + l, k)`. -/
theorem band2_apply (c : Dev nD) (l k : Fin 32) :
    (V m c main_v7 : S32x32.Idx → EReal) (ix2 l k) = ((m ((c : Thread nD τ).loc main_arg4)) : S96x32.Idx → EReal) (ix2 (band2 l) k) :=
  (congrFun (V_band2 m c) (ix2 l k)).trans (extractStridedSlice_apply ![64, 0] _ slices_S96x32_S32x32_64_0 (ix2 l k) (ix2 (band2 l) k)
    (fun a => match a with
      | ⟨0, _⟩ => by show 64 + l.val = 64 + l.val; rfl
      | ⟨1, _⟩ => by show k.val = 0 + k.val; omega))
/-- The first bias row at `(0, k)` is the bias vector at `k`. -/
theorem bias1_apply (c : Dev nD) (k : Fin 32) :
    (V m c main_v8 : S1x32.Idx → EReal) (ix2 (0 : Fin 1) k) = ((m ((c : Thread nD τ).loc main_arg5)) : S32.Idx → EReal) (ix1 k) :=
  (congrFun (V_bias1 m c) (ix2 (0 : Fin 1) k)).trans (shapeCast_apply _ shapeCasts_S32_S1x32 (ix2 (0 : Fin 1) k) (ix1 k)
    (by rewrite [Shape.rowMajor_val_two, Shape.rowMajor_val_one]; show k.val = 0 * 32 + k.val; omega))
/-- The second bias row at `(0, q)` is the bias vector at `q`. -/
theorem bias2_apply (c : Dev nD) (q : Fin 32) :
    (V m c main_v9 : S1x32.Idx → EReal) (ix2 (0 : Fin 1) q) = ((m ((c : Thread nD τ).loc main_arg7)) : S32.Idx → EReal) (ix1 q) :=
  (congrFun (V_bias2 m c) (ix2 (0 : Fin 1) q)).trans (shapeCast_apply _ shapeCasts_S32_S1x32 (ix2 (0 : Fin 1) q) (ix1 q)
    (by rewrite [Shape.rowMajor_val_two, Shape.rowMajor_val_one]; show q.val = 0 * 32 + q.val; omega))

/-! ## Each input window's block at a point, read at an entry

Each is stated first for an arbitrary array in the window's place (the block's entry is the array's entry at the block's
offset plus the entry's coordinates), then for the array the region finds there. -/

/-- Row `p` of the node-feature block at point `t` is row `r` of the array, `r` the block's first row plus `p`. -/
theorem read_node (c : Dev nD) (t : Fin cfg0.N) (A : Buf (Elt Ideal) ((c : Thread nD τ).loc main_arg0)) (p : Fin 10000) (l : Fin 32) (r : Fin 100000)
    (hr : r.val = win0_0.index t (0 : Fin 2) * 10000 + p.val) (h1 : win0_0.index t (1 : Fin 2) = 0) :
    (((cfg0.win 0).blk t).view.read (Elt Ideal) A : Vec Ideal S10000x32 .f32) (ix2 p l) = (A : S100000x32.Idx → EReal) (ix2 r l) := by
  show (A : S100000x32.Idx → EReal) (((cfg0.win 0).blk t).view.emb (ix2 p l)) = (A : S100000x32.Idx → EReal) (ix2 r l)
  refine congrArg (A : S100000x32.Idx → EReal) (funext fun a => Fin.ext ?_)
  match a with
  | ⟨0, _⟩ => show win0_0.index t (0 : Fin 2) * 10000 + 1 * p.val = r.val; omega
  | ⟨1, _⟩ => show win0_0.index t (1 : Fin 2) * 32 + 1 * l.val = l.val; omega
theorem blk_node (c : Dev nD) (t : Fin cfg0.N) (p : Fin 10000) (l : Fin 32) (r : Fin 100000)
    (hr : r.val = win0_0.index t (0 : Fin 2) * 10000 + p.val) (h1 : win0_0.index t (1 : Fin 2) = 0) :
    (iblk m c 0 t : Vec Ideal S10000x32 .f32) (ix2 p l) = ((m ((c : Thread nD τ).loc main_arg0)) : S100000x32.Idx → EReal) (ix2 r l) := by
  unfold iblk
  exact (read_node c t (V m c main_arg0) p l r hr h1).trans (congrFun (V_main_arg0 m c) (ix2 r l))

/-- The same for the aggregated edge features. -/
theorem read_agg (c : Dev nD) (t : Fin cfg0.N) (A : Buf (Elt Ideal) ((c : Thread nD τ).loc main_v4)) (p : Fin 10000) (l : Fin 32) (r : Fin 100000)
    (hr : r.val = win0_1.index t (0 : Fin 2) * 10000 + p.val) (h1 : win0_1.index t (1 : Fin 2) = 0) :
    (((cfg0.win 1).blk t).view.read (Elt Ideal) A : Vec Ideal S10000x32 .f32) (ix2 p l) = (A : S100000x32.Idx → EReal) (ix2 r l) := by
  show (A : S100000x32.Idx → EReal) (((cfg0.win 1).blk t).view.emb (ix2 p l)) = (A : S100000x32.Idx → EReal) (ix2 r l)
  refine congrArg (A : S100000x32.Idx → EReal) (funext fun a => Fin.ext ?_)
  match a with
  | ⟨0, _⟩ => show win0_1.index t (0 : Fin 2) * 10000 + 1 * p.val = r.val; omega
  | ⟨1, _⟩ => show win0_1.index t (1 : Fin 2) * 32 + 1 * l.val = l.val; omega
theorem blk_agg (c : Dev nD) (t : Fin cfg0.N) (p : Fin 10000) (l : Fin 32) (r : Fin 100000)
    (hr : r.val = win0_1.index t (0 : Fin 2) * 10000 + p.val) (h1 : win0_1.index t (1 : Fin 2) = 0) :
    (iblk m c 1 t : Vec Ideal S10000x32 .f32) (ix2 p l) = Cert.ReferenceIdeal.Read.val_main_v4 (F := Ideal) (m ((c : Thread nD τ).loc main_arg1)) (m ((c : Thread nD τ).loc main_arg2)) (ix2 r l) := by
  unfold iblk
  exact (read_agg c t (V m c main_v4) p l r hr h1).trans (congrFun (V_agg m c) (ix2 r l))

/-- The global row's block is the global row. -/
theorem read_global (c : Dev nD) (t : Fin cfg0.N) (A : Buf (Elt Ideal) ((c : Thread nD τ).loc main_arg3)) (l : Fin 32)
    (h0 : win0_2.index t (0 : Fin 2) = 0) (h1 : win0_2.index t (1 : Fin 2) = 0) :
    (((cfg0.win 2).blk t).view.read (Elt Ideal) A : Vec Ideal S1x32 .f32) (ix2 (0 : Fin 1) l) = (A : S1x32.Idx → EReal) (ix2 (0 : Fin 1) l) := by
  show (A : S1x32.Idx → EReal) (((cfg0.win 2).blk t).view.emb (ix2 (0 : Fin 1) l)) = (A : S1x32.Idx → EReal) (ix2 (0 : Fin 1) l)
  refine congrArg (A : S1x32.Idx → EReal) (funext fun a => Fin.ext ?_)
  match a with
  | ⟨0, _⟩ => show win0_2.index t (0 : Fin 2) * 1 + 1 * 0 = 0; omega
  | ⟨1, _⟩ => show win0_2.index t (1 : Fin 2) * 32 + 1 * l.val = l.val; omega
theorem blk_global (c : Dev nD) (t : Fin cfg0.N) (l : Fin 32)
    (h0 : win0_2.index t (0 : Fin 2) = 0) (h1 : win0_2.index t (1 : Fin 2) = 0) :
    (iblk m c 2 t : Vec Ideal S1x32 .f32) (ix2 (0 : Fin 1) l) = ((m ((c : Thread nD τ).loc main_arg3)) : S1x32.Idx → EReal) (ix2 (0 : Fin 1) l) := by
  unfold iblk
  exact (read_global c t (V m c main_arg3) l h0 h1).trans (congrFun (V_main_arg3 m c) (ix2 (0 : Fin 1) l))

/-- The three weight-band blocks are the bands of the first weight matrix. -/
theorem read_band0 (c : Dev nD) (t : Fin cfg0.N) (A : Buf (Elt Ideal) ((c : Thread nD τ).loc main_v5)) (l k : Fin 32)
    (h0 : win0_3.index t (0 : Fin 2) = 0) (h1 : win0_3.index t (1 : Fin 2) = 0) :
    (((cfg0.win 3).blk t).view.read (Elt Ideal) A : Vec Ideal S32x32 .f32) (ix2 l k) = (A : S32x32.Idx → EReal) (ix2 l k) := by
  show (A : S32x32.Idx → EReal) (((cfg0.win 3).blk t).view.emb (ix2 l k)) = (A : S32x32.Idx → EReal) (ix2 l k)
  refine congrArg (A : S32x32.Idx → EReal) (funext fun a => Fin.ext ?_)
  match a with
  | ⟨0, _⟩ => show win0_3.index t (0 : Fin 2) * 32 + 1 * l.val = l.val; omega
  | ⟨1, _⟩ => show win0_3.index t (1 : Fin 2) * 32 + 1 * k.val = k.val; omega
theorem blk_band0 (c : Dev nD) (t : Fin cfg0.N) (l k : Fin 32)
    (h0 : win0_3.index t (0 : Fin 2) = 0) (h1 : win0_3.index t (1 : Fin 2) = 0) :
    (iblk m c 3 t : Vec Ideal S32x32 .f32) (ix2 l k) = ((m ((c : Thread nD τ).loc main_arg4)) : S96x32.Idx → EReal) (ix2 (band0 l) k) := by
  unfold iblk
  exact (read_band0 c t (V m c main_v5) l k h0 h1).trans (band0_apply m c l k)

theorem read_band1 (c : Dev nD) (t : Fin cfg0.N) (A : Buf (Elt Ideal) ((c : Thread nD τ).loc main_v6)) (l k : Fin 32)
    (h0 : win0_4.index t (0 : Fin 2) = 0) (h1 : win0_4.index t (1 : Fin 2) = 0) :
    (((cfg0.win 4).blk t).view.read (Elt Ideal) A : Vec Ideal S32x32 .f32) (ix2 l k) = (A : S32x32.Idx → EReal) (ix2 l k) := by
  show (A : S32x32.Idx → EReal) (((cfg0.win 4).blk t).view.emb (ix2 l k)) = (A : S32x32.Idx → EReal) (ix2 l k)
  refine congrArg (A : S32x32.Idx → EReal) (funext fun a => Fin.ext ?_)
  match a with
  | ⟨0, _⟩ => show win0_4.index t (0 : Fin 2) * 32 + 1 * l.val = l.val; omega
  | ⟨1, _⟩ => show win0_4.index t (1 : Fin 2) * 32 + 1 * k.val = k.val; omega
theorem blk_band1 (c : Dev nD) (t : Fin cfg0.N) (l k : Fin 32)
    (h0 : win0_4.index t (0 : Fin 2) = 0) (h1 : win0_4.index t (1 : Fin 2) = 0) :
    (iblk m c 4 t : Vec Ideal S32x32 .f32) (ix2 l k) = ((m ((c : Thread nD τ).loc main_arg4)) : S96x32.Idx → EReal) (ix2 (band1 l) k) := by
  unfold iblk
  exact (read_band1 c t (V m c main_v6) l k h0 h1).trans (band1_apply m c l k)

theorem read_band2 (c : Dev nD) (t : Fin cfg0.N) (A : Buf (Elt Ideal) ((c : Thread nD τ).loc main_v7)) (l k : Fin 32)
    (h0 : win0_5.index t (0 : Fin 2) = 0) (h1 : win0_5.index t (1 : Fin 2) = 0) :
    (((cfg0.win 5).blk t).view.read (Elt Ideal) A : Vec Ideal S32x32 .f32) (ix2 l k) = (A : S32x32.Idx → EReal) (ix2 l k) := by
  show (A : S32x32.Idx → EReal) (((cfg0.win 5).blk t).view.emb (ix2 l k)) = (A : S32x32.Idx → EReal) (ix2 l k)
  refine congrArg (A : S32x32.Idx → EReal) (funext fun a => Fin.ext ?_)
  match a with
  | ⟨0, _⟩ => show win0_5.index t (0 : Fin 2) * 32 + 1 * l.val = l.val; omega
  | ⟨1, _⟩ => show win0_5.index t (1 : Fin 2) * 32 + 1 * k.val = k.val; omega
theorem blk_band2 (c : Dev nD) (t : Fin cfg0.N) (l k : Fin 32)
    (h0 : win0_5.index t (0 : Fin 2) = 0) (h1 : win0_5.index t (1 : Fin 2) = 0) :
    (iblk m c 5 t : Vec Ideal S32x32 .f32) (ix2 l k) = ((m ((c : Thread nD τ).loc main_arg4)) : S96x32.Idx → EReal) (ix2 (band2 l) k) := by
  unfold iblk
  exact (read_band2 c t (V m c main_v7) l k h0 h1).trans (band2_apply m c l k)

/-- The first bias row's block is the first bias. -/
theorem read_bias1 (c : Dev nD) (t : Fin cfg0.N) (A : Buf (Elt Ideal) ((c : Thread nD τ).loc main_v8)) (k : Fin 32)
    (h0 : win0_6.index t (0 : Fin 2) = 0) (h1 : win0_6.index t (1 : Fin 2) = 0) :
    (((cfg0.win 6).blk t).view.read (Elt Ideal) A : Vec Ideal S1x32 .f32) (ix2 (0 : Fin 1) k) = (A : S1x32.Idx → EReal) (ix2 (0 : Fin 1) k) := by
  show (A : S1x32.Idx → EReal) (((cfg0.win 6).blk t).view.emb (ix2 (0 : Fin 1) k)) = (A : S1x32.Idx → EReal) (ix2 (0 : Fin 1) k)
  refine congrArg (A : S1x32.Idx → EReal) (funext fun a => Fin.ext ?_)
  match a with
  | ⟨0, _⟩ => show win0_6.index t (0 : Fin 2) * 1 + 1 * 0 = 0; omega
  | ⟨1, _⟩ => show win0_6.index t (1 : Fin 2) * 32 + 1 * k.val = k.val; omega
theorem blk_bias1 (c : Dev nD) (t : Fin cfg0.N) (k : Fin 32)
    (h0 : win0_6.index t (0 : Fin 2) = 0) (h1 : win0_6.index t (1 : Fin 2) = 0) :
    (iblk m c 6 t : Vec Ideal S1x32 .f32) (ix2 (0 : Fin 1) k) = ((m ((c : Thread nD τ).loc main_arg5)) : S32.Idx → EReal) (ix1 k) := by
  unfold iblk
  exact (read_bias1 c t (V m c main_v8) k h0 h1).trans (bias1_apply m c k)

/-- The second weight matrix's block is the matrix. -/
theorem read_w2 (c : Dev nD) (t : Fin cfg0.N) (A : Buf (Elt Ideal) ((c : Thread nD τ).loc main_arg6)) (k q : Fin 32)
    (h0 : win0_7.index t (0 : Fin 2) = 0) (h1 : win0_7.index t (1 : Fin 2) = 0) :
    (((cfg0.win 7).blk t).view.read (Elt Ideal) A : Vec Ideal S32x32 .f32) (ix2 k q) = (A : S32x32.Idx → EReal) (ix2 k q) := by
  show (A : S32x32.Idx → EReal) (((cfg0.win 7).blk t).view.emb (ix2 k q)) = (A : S32x32.Idx → EReal) (ix2 k q)
  refine congrArg (A : S32x32.Idx → EReal) (funext fun a => Fin.ext ?_)
  match a with
  | ⟨0, _⟩ => show win0_7.index t (0 : Fin 2) * 32 + 1 * k.val = k.val; omega
  | ⟨1, _⟩ => show win0_7.index t (1 : Fin 2) * 32 + 1 * q.val = q.val; omega
theorem blk_w2 (c : Dev nD) (t : Fin cfg0.N) (k q : Fin 32)
    (h0 : win0_7.index t (0 : Fin 2) = 0) (h1 : win0_7.index t (1 : Fin 2) = 0) :
    (iblk m c 7 t : Vec Ideal S32x32 .f32) (ix2 k q) = ((m ((c : Thread nD τ).loc main_arg6)) : S32x32.Idx → EReal) (ix2 k q) := by
  unfold iblk
  exact (read_w2 c t (V m c main_arg6) k q h0 h1).trans (congrFun (V_main_arg6 m c) (ix2 k q))

/-- The second bias row's block is the second bias. -/
theorem read_bias2 (c : Dev nD) (t : Fin cfg0.N) (A : Buf (Elt Ideal) ((c : Thread nD τ).loc main_v9)) (q : Fin 32)
    (h0 : win0_8.index t (0 : Fin 2) = 0) (h1 : win0_8.index t (1 : Fin 2) = 0) :
    (((cfg0.win 8).blk t).view.read (Elt Ideal) A : Vec Ideal S1x32 .f32) (ix2 (0 : Fin 1) q) = (A : S1x32.Idx → EReal) (ix2 (0 : Fin 1) q) := by
  show (A : S1x32.Idx → EReal) (((cfg0.win 8).blk t).view.emb (ix2 (0 : Fin 1) q)) = (A : S1x32.Idx → EReal) (ix2 (0 : Fin 1) q)
  refine congrArg (A : S1x32.Idx → EReal) (funext fun a => Fin.ext ?_)
  match a with
  | ⟨0, _⟩ => show win0_8.index t (0 : Fin 2) * 1 + 1 * 0 = 0; omega
  | ⟨1, _⟩ => show win0_8.index t (1 : Fin 2) * 32 + 1 * q.val = q.val; omega
theorem blk_bias2 (c : Dev nD) (t : Fin cfg0.N) (q : Fin 32)
    (h0 : win0_8.index t (0 : Fin 2) = 0) (h1 : win0_8.index t (1 : Fin 2) = 0) :
    (iblk m c 8 t : Vec Ideal S1x32 .f32) (ix2 (0 : Fin 1) q) = ((m ((c : Thread nD τ).loc main_arg7)) : S32.Idx → EReal) (ix1 q) := by
  unfold iblk
  exact (read_bias2 c t (V m c main_v9) q h0 h1).trans (bias2_apply m c q)

end Cert.KernelIdeal.Arrays

end
-- ==== Proof.ArrayValue.lean ====
/-
  From blocks to the whole array: after the run the result array is `Cert.NodeMlp.result` of the arguments.

  Grid point `t` writes back rows `10000 t … 10000 t + 9999`. Entry `(p, q)` of what it writes is `mlp` of row `p` of
  its two feature blocks, the global row and the weights as staged (the body's payload read at an entry); those are row
  `10000 t + p` of the node features and of the aggregated edge features, and the global row, weight bands and biases
  of the arguments. So the written block is the block of `result` at the point's rows. The ten blocks of rows tile the
  array (row `r` lies in block `r / 10000`), hence the array ends holding `result` everywhere.
-/
import proofs.«172784_j21852793602131_2_alg».proof.Proof.Gen.KernelIdeal.Value
import proofs.«172784_j21852793602131_2_alg».proof.Proof.KernelBlock
import proofs.«172784_j21852793602131_2_alg».proof.Proof.Arrays
import proofs.«172784_j21852793602131_2_alg».proof.Proof.Spec
import Idealize.ShloMosaic.Lib.ValueIdx
import Idealize.ShloMosaic.Lib.Pipeline.Value

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx
open Cert.NodeMlp Cert.KernelIdeal.Arrays Cert.KernelIdeal.BlockValue

variable (m : (ℓ : Loc nD τ sig) → Buf (Elt Ideal) ℓ) (ρ : Dev nD → PrngReg)

/-- The result array as one function of the argument arrays; the aggregated edge features are the host's scatter-add
    of the edge features by receiver, taken whole. -/
def G (c : Dev nD) : S100000x32.Idx → EReal :=
  result (Ideal.ofBits .f32 0x00000000#32) (m ((c : Thread nD τ).loc main_arg0))
    (Cert.ReferenceIdeal.Read.val_main_v4 (F := Ideal) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6)) (m ((c : Thread nD τ).loc main_arg7))

theorem hz : (![0, 0] : Fin 2 → Nat) = fun _ => 0 := funext fun a => by fin_cases a <;> rfl

theorem ld_rows (X : Vec Ideal S10000x32 .f32) : View.ld X r0_0 = X := View.ld_unit_zero (S := S10000x32) hz _ X
theorem ld_row (X : Vec Ideal S1x32 .f32) : View.ld X r0_1 = X := View.ld_unit_zero (S := S1x32) hz _ X
theorem ld_sq (X : Vec Ideal S32x32 .f32) : View.ld X r0_2 = X := View.ld_unit_zero (S := S32x32) hz _ X

/-- Entry `(p, q)` of what point `t`'s body leaves in the output block is `G` at row `r`, the block's first row plus `p`. -/
theorem out_apply (c : Dev nD) (t : Fin cfg0.N) (p : Fin 10000) (q : Fin 32) (r : Fin 100000)
    (hr : r.val = win0_9.index t (0 : Fin 2) * 10000 + p.val) :
    (out0_9 (iblk m c 0 t) (iblk m c 1 t) (iblk m c 2 t) (iblk m c 3 t) (iblk m c 4 t) (iblk m c 5 t) (iblk m c 6 t) (iblk m c 7 t) (iblk m c 8 t) : Vec Ideal S10000x32 .f32) (ix2 p q) = G m c (ix2 r q) := by
  obtain ⟨e00, e01, e10, e11, e20, e21, e30, e31, e40, e41, e50, e51, e60, e61, e70, e71, e80, e81, e9le, e91⟩ := idx_facts t
  unfold out0_9
  refine (canon9_eq (View.ld (iblk m c 0 t) r0_0) (View.ld (iblk m c 1 t) r0_0) (View.ld (iblk m c 2 t) r0_1) (View.ld (iblk m c 3 t) r0_2) (View.ld (iblk m c 4 t) r0_2) (View.ld (iblk m c 5 t) r0_2) (View.ld (iblk m c 6 t) r0_1) (View.ld (iblk m c 7 t) r0_2) (View.ld (iblk m c 8 t) r0_1) (ix2 p q)).trans ?_
  refine (block_apply (View.ld (iblk m c 0 t) r0_0) (View.ld (iblk m c 1 t) r0_0) (View.ld (iblk m c 2 t) r0_1) (View.ld (iblk m c 3 t) r0_2) (View.ld (iblk m c 4 t) r0_2) (View.ld (iblk m c 5 t) r0_2) (View.ld (iblk m c 6 t) r0_1) (View.ld (iblk m c 7 t) r0_2) (View.ld (iblk m c 8 t) r0_1) p q).trans ?_
  have f0 : (fun l : Fin 32 => View.ld (iblk m c 0 t) r0_0 (ix2 p l)) = fun l => ((m ((c : Thread nD τ).loc main_arg0)) : S100000x32.Idx → EReal) (ix2 r l) :=
    funext fun l => (congrFun (ld_rows (iblk m c 0 t)) (ix2 p l)).trans (blk_node m c t p l r (by rw [e00]; exact hr) e01)
  have f1 : (fun l : Fin 32 => View.ld (iblk m c 1 t) r0_0 (ix2 p l)) = fun l => Cert.ReferenceIdeal.Read.val_main_v4 (F := Ideal) (m ((c : Thread nD τ).loc main_arg1)) (m ((c : Thread nD τ).loc main_arg2)) (ix2 r l) :=
    funext fun l => (congrFun (ld_rows (iblk m c 1 t)) (ix2 p l)).trans (blk_agg m c t p l r (by rw [e10]; exact hr) e11)
  have f2 : (fun l : Fin 32 => View.ld (iblk m c 2 t) r0_1 (ix2 (0 : Fin 1) l)) = fun l => ((m ((c : Thread nD τ).loc main_arg3)) : S1x32.Idx → EReal) (ix2 (0 : Fin 1) l) :=
    funext fun l => (congrFun (ld_row (iblk m c 2 t)) (ix2 (0 : Fin 1) l)).trans (blk_global m c t l e20 e21)
  have f3 : (fun l k : Fin 32 => View.ld (iblk m c 3 t) r0_2 (ix2 l k)) = fun l k => ((m ((c : Thread nD τ).loc main_arg4)) : S96x32.Idx → EReal) (ix2 (band0 l) k) :=
    funext fun l => funext fun k => (congrFun (ld_sq (iblk m c 3 t)) (ix2 l k)).trans (blk_band0 m c t l k e30 e31)
  have f4 : (fun l k : Fin 32 => View.ld (iblk m c 4 t) r0_2 (ix2 l k)) = fun l k => ((m ((c : Thread nD τ).loc main_arg4)) : S96x32.Idx → EReal) (ix2 (band1 l) k) :=
    funext fun l => funext fun k => (congrFun (ld_sq (iblk m c 4 t)) (ix2 l k)).trans (blk_band1 m c t l k e40 e41)
  have f5 : (fun l k : Fin 32 => View.ld (iblk m c 5 t) r0_2 (ix2 l k)) = fun l k => ((m ((c : Thread nD τ).loc main_arg4)) : S96x32.Idx → EReal) (ix2 (band2 l) k) :=
    funext fun l => funext fun k => (congrFun (ld_sq (iblk m c 5 t)) (ix2 l k)).trans (blk_band2 m c t l k e50 e51)
  have f6 : (fun k : Fin 32 => View.ld (iblk m c 6 t) r0_1 (ix2 (0 : Fin 1) k)) = fun k => ((m ((c : Thread nD τ).loc main_arg5)) : S32.Idx → EReal) (ix1 k) :=
    funext fun k => (congrFun (ld_row (iblk m c 6 t)) (ix2 (0 : Fin 1) k)).trans (blk_bias1 m c t k e60 e61)
  have f7 : (fun k q : Fin 32 => View.ld (iblk m c 7 t) r0_2 (ix2 k q)) = fun k q => ((m ((c : Thread nD τ).loc main_arg6)) : S32x32.Idx → EReal) (ix2 k q) :=
    funext fun k => funext fun q => (congrFun (ld_sq (iblk m c 7 t)) (ix2 k q)).trans (blk_w2 m c t k q e70 e71)
  have f8 : (fun q : Fin 32 => View.ld (iblk m c 8 t) r0_1 (ix2 (0 : Fin 1) q)) = fun q => ((m ((c : Thread nD τ).loc main_arg7)) : S32.Idx → EReal) (ix1 q) :=
    funext fun q => (congrFun (ld_row (iblk m c 8 t)) (ix2 (0 : Fin 1) q)).trans (blk_bias2 m c t q e80 e81)
  rw [f0, f1, f2, f3, f4, f5, f6, f7, f8]
  rfl

/-- What point `t` writes back is the block of `G` at the point's rows. -/
theorem flushed_eq (c : Dev nD) (t : Fin cfg0.N) :
    (dats m 0 c).flushed 9 t = ((cfg0.win 9).blk t).view.read (Elt Ideal) (G m c) := by
  rw [flushed9]
  have ⟨e9le, e91⟩ : win0_9.index t (0 : Fin 2) ≤ 9 ∧ win0_9.index t (1 : Fin 2) = 0 := by
    obtain ⟨e00, e01, e10, e11, e20, e21, e30, e31, e40, e41, e50, e51, e60, e61, e70, e71, e80, e81, e9le, e91⟩ := idx_facts t
    exact ⟨e9le, e91⟩
  refine funext fun (j : S10000x32.Idx) => ?_
  obtain ⟨p, q, rfl⟩ : ∃ (p : Fin 10000) (q : Fin 32), j = ix2 p q := ⟨j 0, j 1, eq_ix2 j⟩
  have hp : p.val < 10000 := p.isLt
  have he : ((cfg0.win 9).blk t).view.emb (ix2 p q)
      = (ix2 (⟨win0_9.index t (0 : Fin 2) * 10000 + p.val, by omega⟩ : Fin 100000) q : S100000x32.Idx) :=
    funext fun a => Fin.ext (by
      match a with
      | ⟨0, _⟩ => show win0_9.index t (0 : Fin 2) * 10000 + 1 * p.val = win0_9.index t (0 : Fin 2) * 10000 + p.val; omega
      | ⟨1, _⟩ => show win0_9.index t (1 : Fin 2) * 32 + 1 * q.val = q.val; omega)
  show (out0_9 (iblk m c 0 t) (iblk m c 1 t) (iblk m c 2 t) (iblk m c 3 t) (iblk m c 4 t) (iblk m c 5 t) (iblk m c 6 t) (iblk m c 7 t) (iblk m c 8 t) : Vec Ideal S10000x32 .f32) (ix2 p q) = G m c (((cfg0.win 9).blk t).view.emb (ix2 p q))
  rw [he]
  exact out_apply m c t p q _ rfl

/-- An index of the array is in point `t`'s block iff each coordinate is in the block's range on its axis. -/
theorem mem_blk (t : Fin cfg0.N) (i : S100000x32.Idx) :
    i ∈ ((cfg0.win 9).blk t).view.set ↔ ∀ a : Fin 2, win0_9.index t a * S10000x32.size a ≤ (i a).val ∧ (i a).val < win0_9.index t a * S10000x32.size a + S10000x32.size a := by
  show i ∈ ((View.whole main_v10).slice (win0_9.rect t)).set ↔ _
  rw [View.set_slice_whole, Rect.mem_set_unit]
  exact Iff.rfl

/-- Every entry of the array lies in some point's block: row `r` in the block of point `r / 10000`. -/
theorem cover (i : S100000x32.Idx) : ∃ t : Fin cfg0.N, (cfg0.win 9).flush t = true ∧ i ∈ ((cfg0.win 9).blk t).view.set := by
  have hi0 : (i 0).val < 100000 := (i 0).isLt
  have hi1 : (i 1).val < 32 := (i 1).isLt
  obtain ⟨t, ht⟩ := idx_onto ⟨(i 0).val / 10000, by omega⟩
  have ht' : win0_9.index t (0 : Fin 2) = (i 0).val / 10000 := ht
  have ⟨e9le, e91⟩ : win0_9.index t (0 : Fin 2) ≤ 9 ∧ win0_9.index t (1 : Fin 2) = 0 := by
    obtain ⟨e00, e01, e10, e11, e20, e21, e30, e31, e40, e41, e50, e51, e60, e61, e70, e71, e80, e81, e9le, e91⟩ := idx_facts t
    exact ⟨e9le, e91⟩
  refine ⟨t, flush0_9 t, ?_⟩
  rw [mem_blk]
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 32 ≤ (i 1).val ∧ (i 1).val < win0_9.index t (1 : Fin 2) * 32 + 32; omega

/-- The result array after the run is `G`. -/
theorem final (c : Dev nD) : (dats m 0 c).arrAt 9 cfg0.N = G m c :=
  (dats m 0 c).arrAt_eq_of_cover 9 (G m c) (fun t _ => flushed_eq m c t) cover

/-- The kernel's run: the result array ends at `G` of the arguments, the arguments unchanged. -/
theorem run : θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.ArrayValue

end
-- ==== Proof.RefIsSpec.lean ====
/-
  The reference computes `Cert.NodeMlp.result`.

  Read at row `r`, column `q`, the reference's last stage is the second layer's sum over the 32 hidden units plus the
  second bias; each hidden unit is the rectified sum, over the 96 columns of the concatenation `[node, agg, global]`, of
  the concatenation times the first weight matrix, plus the first bias. Splitting the 96 columns into the three bands
  (`sum_bands`) and reading the concatenation band by band — band 0 is the node features, band 1 the aggregated edge
  features, band 2 the global row — gives `mlp` of the three rows. The aggregated edge features enter as one array,
  never opened.
-/
import proofs.«172784_j21852793602131_2_alg».proof.Proof.Gen.ReferenceIdeal.Read
import proofs.«172784_j21852793602131_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.NodeMlp

variable (x0 : (⟨S100000x32, .f32⟩ : BufTy).Contents (Elt Ideal)) (x1 : (⟨S2x1600000, .i32⟩ : BufTy).Contents (Elt Ideal))
  (x2 : (⟨S1600000x32, .f32⟩ : BufTy).Contents (Elt Ideal)) (x3 : (⟨S1x32, .f32⟩ : BufTy).Contents (Elt Ideal))
  (x4 : (⟨S96x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))

/-! ## The operand indices of the two matrix products and of the bias broadcasts, in coordinates -/

theorem lidx7 (r : Fin 100000) (k : Fin 32) (k' : Fin 96) : lidx_main_v7 (ix2 r k) k' = ix2 r k' :=
  funext fun a => Fin.ext (by match a with | ⟨0, _⟩ => rfl | ⟨1, _⟩ => rfl)
theorem ridx7 (r : Fin 100000) (k : Fin 32) (k' : Fin 96) : ridx_main_v7 (ix2 r k) k' = ix2 k' k :=
  funext fun a => Fin.ext (by match a with | ⟨0, _⟩ => rfl | ⟨1, _⟩ => rfl)
theorem lidx12 (r : Fin 100000) (q : Fin 32) (k : Fin 32) : lidx_main_v12 (ix2 r q) k = ix2 r k :=
  funext fun a => Fin.ext (by match a with | ⟨0, _⟩ => rfl | ⟨1, _⟩ => rfl)
theorem ridx12 (r : Fin 100000) (q : Fin 32) (k : Fin 32) : ridx_main_v12 (ix2 r q) k = ix2 k q :=
  funext fun a => Fin.ext (by match a with | ⟨0, _⟩ => rfl | ⟨1, _⟩ => rfl)
theorem idx5 (r : Fin 100000) (l : Fin 32) : idx_main_v5 (ix2 r l) = ix2 (0 : Fin 1) l :=
  funext fun a => Fin.ext (by match a with | ⟨0, _⟩ => rfl | ⟨1, _⟩ => rfl)
theorem idx89 (r : Fin 100000) (k : Fin 32) : idx_main_v8 (idx_main_v9 (ix2 r k)) = ix1 k :=
  funext fun a => Fin.ext (by match a with | ⟨0, _⟩ => rfl)
theorem idx1314 (r : Fin 100000) (q : Fin 32) : idx_main_v13 (idx_main_v14 (ix2 r q)) = ix1 q :=
  funext fun a => Fin.ext (by match a with | ⟨0, _⟩ => rfl)

/-! ## The concatenation, band by band -/

/-- Columns 0–31 of the concatenation are the node features. -/
theorem cat0 (r : Fin 100000) (l : Fin 32) : val_main_v6 (F := Ideal) x0 x1 x2 x3 (ix2 r (band0 l)) = x0 (ix2 r l) := by
  unfold val_main_v6
  refine concatenate_apply_piece (1 : Fin S100000x96.rank) _ _ (ix2 r (band0 l)) 0 (by show (0 : Nat) < 3; decide) S100000x32 x0 rfl rfl 0 rfl (ix2 r l) (fun b hb => ?_) ?_
  · match b with
    | ⟨0, _⟩ => rfl
    | ⟨1, _⟩ => exact absurd rfl hb
  · show 0 + l.val = l.val; omega

/-- Columns 32–63 are the aggregated edge features. -/
theorem cat1 (r : Fin 100000) (l : Fin 32) :
    val_main_v6 (F := Ideal) x0 x1 x2 x3 (ix2 r (band1 l)) = val_main_v4 (F := Ideal) x1 x2 (ix2 r l) := by
  unfold val_main_v6
  refine concatenate_apply_piece (1 : Fin S100000x96.rank) _ _ (ix2 r (band1 l)) 1 (by show (1 : Nat) < 3; decide) S100000x32 (val_main_v4 (F := Ideal) x1 x2) rfl rfl 32 rfl (ix2 r l) (fun b hb => ?_) ?_
  · match b with
    | ⟨0, _⟩ => rfl
    | ⟨1, _⟩ => exact absurd rfl hb
  · show 32 + l.val = 32 + l.val; rfl

/-- Columns 64–95 are the global row, the same for every node. -/
theorem cat2 (r : Fin 100000) (l : Fin 32) :
    val_main_v6 (F := Ideal) x0 x1 x2 x3 (ix2 r (band2 l)) = x3 (ix2 (0 : Fin 1) l) := by
  unfold val_main_v6
  refine (concatenate_apply_piece (1 : Fin S100000x96.rank) _ _ (ix2 r (band2 l)) 2 (by show (2 : Nat) < 3; decide) S100000x32 (val_main_v5 (F := Ideal) x3) rfl rfl 64 rfl (ix2 r l) (fun b hb => ?_) ?_).trans ?_
  · match b with
    | ⟨0, _⟩ => rfl
    | ⟨1, _⟩ => exact absurd rfl hb
  · show 64 + l.val = 64 + l.val; rfl
  · rw [val_main_v5_apply, idx5]

/-! ## The hidden layer and the result -/

/-- Hidden unit `k` of node `r`: the rectified first layer, its 96-term sum split into the three bands. -/
theorem hidden_eq (r : Fin 100000) (k : Fin 32) :
    val_main_v11 (F := Ideal) x0 x1 x2 x3 x4 x5 (ix2 r k)
      = max (((∑ l : Fin 32, x0 (ix2 r l) * x4 (ix2 (band0 l) k) + ∑ l : Fin 32, val_main_v4 (F := Ideal) x1 x2 (ix2 r l) * x4 (ix2 (band1 l) k))
              + ∑ l : Fin 32, x3 (ix2 (0 : Fin 1) l) * x4 (ix2 (band2 l) k)) + x5 (ix1 k))
          (Ideal.ofBits .f32 0x00000000#32) := by
  rw [val_main_v11_apply, val_main_v10_apply, val_main_v7_apply, val_main_v9_apply, val_main_v8_apply, val_main_call0_v0_apply,
    val_main_call0_cst_apply, sum_bands, idx89]
  simp only [lidx7, ridx7, cat0, cat1, cat2]
  rfl

/-- The reference's last stage is `result` of the arguments, the aggregated edge features entering as one array. -/
theorem ref_eq :
    val_main_v15 (F := Ideal) x0 x1 x2 x3 x4 x5 x6 x7
      = result (Ideal.ofBits .f32 0x00000000#32) x0 (val_main_v4 (F := Ideal) x1 x2) x3 x4 x5 x6 x7 := by
  funext i
  obtain ⟨r, q, rfl⟩ : ∃ (r : Fin 100000) (q : Fin 32), i = ix2 r q := ⟨i 0, i 1, eq_ix2 i⟩
  rw [val_main_v15_apply, val_main_v12_apply, val_main_v14_apply, val_main_v13_apply, idx1314]
  simp only [lidx12, ridx12, hidden_eq]
  rfl

end Cert.ReferenceIdeal.RefValue

end
-- ==== Proof.lean ====
/-
  A graph network's node update, the kernel against its reference, on the extended reals.

  Both programs first sum each node's incoming edge features (the same host scatter-add of the same operands, carried
  as one array and never opened). The reference then concatenates, per node, the node's features, that sum and the
  global features into a 96-vector, applies a 96 × 32 linear layer and bias, rectifies, and applies a 32 × 32 layer and
  bias. The kernel walks the nodes in ten blocks of 10000 rows and, per block, multiplies the three 32-wide parts by the
  three bands of 32 rows of the first weight matrix, adds the three products and the bias, rectifies, and applies the
  second layer; its roundings to a narrower float format are the identity on the extended reals.

  The two agree because a sum over the 96 concatenated columns is the sum of the sums over the three bands
  (`Cert.NodeMlp.sum_bands`): a regrouping of a finite sum, valid in any commutative additive monoid, so no finiteness
  of the inputs is used. `Proof/Spec.lean` states the common function `result`; `Proof/RefIsSpec.lean` reads the
  reference's stages at an entry and arrives at it; `Proof/KernelBlock.lean` reads the kernel body's payload at an entry,
  `Proof/Arrays.lean` what each staged block holds, and `Proof/ArrayValue.lean` puts the ten blocks together. The
  programs' frames are the generated ones; the idealization rewrote nothing, so `preserves` is trivial.
-/
import proofs.«172784_j21852793602131_2_alg».proof.Defs
import proofs.«172784_j21852793602131_2_alg».proof.Proof.Gen.Kernel
import proofs.«172784_j21852793602131_2_alg».proof.Proof.Gen.Kernel.Frame
import proofs.«172784_j21852793602131_2_alg».proof.Proof.Gen.KernelIdeal
import proofs.«172784_j21852793602131_2_alg».proof.Proof.Gen.KernelIdeal.Frame
import proofs.«172784_j21852793602131_2_alg».proof.Proof.Gen.KernelIdeal.Value
import proofs.«172784_j21852793602131_2_alg».proof.Proof.Gen.ReferenceIdeal
import proofs.«172784_j21852793602131_2_alg».proof.Proof.Gen.ReferenceIdeal.Run
import proofs.«172784_j21852793602131_2_alg».proof.Proof.Gen.ReferenceIdeal.Read
import proofs.«172784_j21852793602131_2_alg».proof.Proof.Gen.Pre_finite_inputs
import proofs.«172784_j21852793602131_2_alg».proof.Proof.ArrayValue
import proofs.«172784_j21852793602131_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `Cert.NodeMlp.result` of the
    arguments: the kernel's by its ten blocks of rows, the reference's by reading its stages at an entry. -/
theorem algebraic : Cert.algebraic_KernelIdeal_ReferenceIdeal := by
  intro m ρ m' ρ' _ hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v15_eq, Cert.ReferenceIdeal.RefValue.ref_eq, a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
